-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S100000x512 : Shape := ⟨2, ![100000, 512]⟩
abbrev S400x512 : Shape := ⟨2, ![400, 512]⟩
abbrev S100000 : Shape := ⟨1, ![100000]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_
  bcast_S_S400x512 : S_.BroadcastsInDim S400x512 (![] : Fin 0 → Fin S400x512.rank)
  reducesTo_S400x512_S_d0_1 : S400x512.ReducesTo [0, 1] S_

variable [Facts]

def fn {F : FTy → Type} [FloatOps F] (main_arg0 : FVec F S2048x512 .f32) (main_arg1 : FVec F S100000x512 .f32) (main_arg2 : FVec F S400x512 .f32) (main_arg3 : IVec S100000 32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S100000x512 .f32 := Host.absf main_arg1
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_v9 : FVec F S400x512 .f32 := Host.absf main_arg2
  let main_cst_2 : FVec F S_ .f32 := constant S_ .f32 0x7F800000#32
  let main_v10 : FVec F S400x512 .f32 := broadcastInDim S400x512 ![] bcast_S_S400x512 main_cst_2
  let main_v11 : IVec S400x512 1 := cmpf .olt main_v9 main_v10
  let main_c_3 : IVec S_ 1 := constantI S_ 1 1#1
  let main_v12 : IVec S_ 1 := (fun x v => Host.reduce IntOp.andi x v reducesTo_S400x512_S_d0_1 h_S_) main_v11 main_c_3
  let main_v13 : IVec S_ 1 := andi main_v8 main_v12
  main_v13
-- ==== Kernel.lean ====
abbrev S2048x512 : Shape := ⟨2, ![2048, 512]⟩
abbrev S100000x512 : Shape := ⟨2, ![100000, 512]⟩
abbrev S400x512 : Shape := ⟨2, ![400, 512]⟩
abbrev S100000 : Shape := ⟨1, ![100000]⟩
abbrev S_ : Shape := ⟨0, ![]⟩
abbrev S512x512 : Shape := ⟨2, ![512, 512]⟩
abbrev S100000x1 : Shape := ⟨2, ![100000, 1]⟩
abbrev S1024x512 : Shape := ⟨2, ![1024, 512]⟩
abbrev S1000x512 : Shape := ⟨2, ![1000, 512]⟩
abbrev S1000x1 : Shape := ⟨2, ![1000, 1]⟩
abbrev S512x1000 : Shape := ⟨2, ![512, 1000]⟩
abbrev S1024x1000 : Shape := ⟨2, ![1024, 1000]⟩
abbrev S2048x400 : Shape := ⟨2, ![2048, 400]⟩

abbrev nBuf : Space → Nat
  | .hbm => 10
  | .vmem => 10
  | .smem => 0
  | _ => 0

abbrev bufTy : (tb : Table) → Fin (tcTables nBuf tb) → BufTy
  | .hbm, ⟨0, _⟩ => ⟨S2048x512, .f32⟩
  | .hbm, ⟨1, _⟩ => ⟨S100000x512, .f32⟩
  | .hbm, ⟨2, _⟩ => ⟨S400x512, .f32⟩
  | .hbm, ⟨3, _⟩ => ⟨S100000, .i32⟩
  | .hbm, ⟨4, _⟩ => ⟨S_, .i32⟩
  | .hbm, ⟨5, _⟩ => ⟨S_, .f32⟩
  | .hbm, ⟨6, _⟩ => ⟨S512x512, .f32⟩
  | .hbm, ⟨7, _⟩ => ⟨S100000x1, .i32⟩
  | .hbm, ⟨8, _⟩ => ⟨S2048x512, .f32⟩
  | .hbm, ⟨9, _⟩ => ⟨S2048x400, .f32⟩
  | .local _ .vmem, ⟨0, _⟩ => ⟨S1024x512, .f32⟩
  | .local _ .vmem, ⟨1, _⟩ => ⟨S1024x512, .f32⟩
  | .local _ .vmem, ⟨2, _⟩ => ⟨S1000x512, .f32⟩
  | .local _ .vmem, ⟨3, _⟩ => ⟨S1000x512, .f32⟩
  | .local _ .vmem, ⟨4, _⟩ => ⟨S512x512, .f32⟩
  | .local _ .vmem, ⟨5, _⟩ => ⟨S1000x1, .i32⟩
  | .local _ .vmem, ⟨6, _⟩ => ⟨S1000x1, .i32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 100], ![false, false]⟩

def k0_cond2 (i : grid0.Coords) : BitVec 1 :=
  let arg1 : BitVec 32 := BitVec.ofNat 32 (i 1).val
  let c99_i32 : BitVec 32 := 99#32
  let v27 : BitVec 1 := Scalar.cmpi .eq arg1 c99_i32
  let v28 : BitVec 32 := Scalar.extui v27
  let c0_i32_14 : BitVec 32 := 0#32
  let v29 : BitVec 1 := Scalar.cmpi .ne v28 c0_i32_14
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1000x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  pads_S400x512_S512x512_01120_000 : S400x512.Pads (![0, 0] : Fin 2 → Nat) ![112, 0] ![0, 0] S512x512
  h_S_ : 0 < S_.numel
  shapeCasts_S100000_S100000x1 : S100000.ShapeCasts S100000x1
  inb_S1024x512_S1024x512_0_0 : ∀ a, (![0, 0] : Fin 2 → Nat) a + S1024x512.size a ≤ S1024x512.size a
  h_S1024x512 : 0 < S1024x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  transposes_S512x512_p1_0_S512x512 : S512x512.Transposes [1, 0] S512x512
  shapeCasts_S1024x512_S1024x512 : S1024x512.ShapeCasts S1024x512
  inb_S1000x512_S1000x512_0_0 : ∀ a, (![0, 0] : Fin 2 → Nat) a + S1000x512.size a ≤ S1000x512.size a
  h_S1000x512 : 0 < S1000x512.numel
  transposes_S1000x512_p1_0_S512x1000 : S1000x512.Transposes [1, 0] S512x1000
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  iota_S1000x512_d1_w32 : S1000x512.Iotas .tc 32 [1]
  broadcasts_S1000x1_S1000x512 : S1000x1.Broadcasts S1000x512
  natLt_1_32 : 1 < 32
  slices_S2048x512_S2048x400_0_0 : S2048x512.Slices ![0, 0] S2048x400
  dot_S1024x512_S512x512_S1024x512_1_0_0_1_n_n_wf : DotDims.WF S1024x512 S512x512 S1024x512 [1] [0] [0] [1] [] []
  dot_S1024x512_S512x1000_S1024x1000_1_0_0_1_n_n_wf : DotDims.WF S1024x512 S512x1000 S1024x1000 [1] [0] [0] [1] [] []
  dot_S1024x1000_S1000x512_S1024x512_1_0_0_1_n_n_wf : DotDims.WF S1024x1000 S1000x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S2048x512.size a
  hwx0_0 : ∀ i : grid0.Coords, EltTy.bits .f32 = 32 ∨ (Rect.block (s := S2048x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S100000x512.size a
  hwx0_1 : ∀ i : grid0.Coords, EltTy.bits .f32 = 32 ∨ (Rect.block (s := S100000x512) S1000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x1.size a ≤ S100000x1.size a
  hwx0_3 : ∀ i : grid0.Coords, EltTy.bits .i32 = 32 ∨ (Rect.block (s := S100000x1) S1000x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S2048x512.size a
  hwx0_4 : ∀ i : grid0.Coords, EltTy.bits .f32 = 32 ∨ (Rect.block (s := S2048x512) S1024x512.size (cc0_transform_4 i) (hinb0_4 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x1000_S1024x1000_1_0_0_1_n_n : DotDims S1024x512 S512x1000 S1024x1000 where
  lhsContracting := [1]
  rhsContracting := [0]
  lhsNonContracting := [0]
  rhsNonContracting := [1]
  lhsBatch := []
  rhsBatch := []
  wf := dot_S1024x512_S512x1000_S1024x1000_1_0_0_1_n_n_wf
def dot_S1024x1000_S1000x512_S1024x512_1_0_0_1_n_n : DotDims S1024x1000 S1000x512 S1024x512 where
  lhsContracting := [1]
  rhsContracting := [0]
  lhsNonContracting := [0]
  rhsNonContracting := [1]
  lhsBatch := []
  rhsBatch := []
  wf := dot_S1024x1000_S1000x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2048x512 : Shape := ⟨2, ![2048, 512]⟩
abbrev S100000x512 : Shape := ⟨2, ![100000, 512]⟩
abbrev S400x512 : Shape := ⟨2, ![400, 512]⟩
abbrev S100000 : Shape := ⟨1, ![100000]⟩
abbrev S100000x1 : Shape := ⟨2, ![100000, 1]⟩
abbrev S1x400 : Shape := ⟨2, ![1, 400]⟩
abbrev S100000x400 : Shape := ⟨2, ![100000, 400]⟩
abbrev S512x100000 : Shape := ⟨2, ![512, 100000]⟩
abbrev S2048x100000 : Shape := ⟨2, ![2048, 100000]⟩
abbrev S_ : Shape := ⟨0, ![]⟩
abbrev S2048x400 : Shape := ⟨2, ![2048, 400]⟩
abbrev S512x400 : Shape := ⟨2, ![512, 400]⟩

abbrev nBuf : Space → Nat
  | .hbm => 29
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S100000x512, .f32⟩
  | .hbm, ⟨2, _⟩ => ⟨S400x512, .f32⟩
  | .hbm, ⟨3, _⟩ => ⟨S100000, .i32⟩
  | .hbm, ⟨4, _⟩ => ⟨S100000x1, .i32⟩
  | .hbm, ⟨5, _⟩ => ⟨S1x400, .i32⟩
  | .hbm, ⟨6, _⟩ => ⟨S100000x400, .i32⟩
  | .hbm, ⟨7, _⟩ => ⟨S100000x400, .i32⟩
  | .hbm, ⟨8, _⟩ => ⟨S100000x400, .i1⟩
  | .hbm, ⟨9, _⟩ => ⟨S100000x400, .f32⟩
  | .hbm, ⟨10, _⟩ => ⟨S512x100000, .f32⟩
  | .hbm, ⟨11, _⟩ => ⟨S2048x100000, .f32⟩
  | .hbm, ⟨12, _⟩ => ⟨S_, .f32⟩
  | .hbm, ⟨13, _⟩ => ⟨S2048x100000, .f32⟩
  | .hbm, ⟨14, _⟩ => ⟨S2048x100000, .f32⟩
  | .hbm, ⟨15, _⟩ => ⟨S_, .f32⟩
  | .hbm, ⟨16, _⟩ => ⟨S2048x100000, .f32⟩
  | .hbm, ⟨17, _⟩ => ⟨S2048x100000, .f32⟩
  | .hbm, ⟨18, _⟩ => ⟨S2048x100000, .f32⟩
  | .hbm, ⟨19, _⟩ => ⟨S2048x400, .f32⟩
  | .hbm, ⟨20, _⟩ => ⟨S512x400, .f32⟩
  | .hbm, ⟨21, _⟩ => ⟨S2048x400, .f32⟩
  | .hbm, ⟨22, _⟩ => ⟨S_, .f32⟩
  | .hbm, ⟨23, _⟩ => ⟨S2048x400, .f32⟩
  | .hbm, ⟨24, _⟩ => ⟨S2048x400, .f32⟩
  | .hbm, ⟨25, _⟩ => ⟨S_, .f32⟩
  | .hbm, ⟨26, _⟩ => ⟨S2048x400, .f32⟩
  | .hbm, ⟨27, _⟩ => ⟨S2048x400, .f32⟩
  | .hbm, ⟨28, _⟩ => ⟨S2048x400, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩

abbrev nD : Nat := 1
abbrev τ : Topo := Topo.v7x

variable {F : FTy → Type} [FloatOps F]

class Facts₀ : Prop where
  bcast_S100000_S100000x1_0 : S100000.BroadcastsInDim S100000x1 (![0] : Fin 1 → Fin S100000x1.rank)
  bcast_S100000x1_S100000x400_0_1 : S100000x1.BroadcastsInDim S100000x400 (![0, 1] : Fin 2 → Fin S100000x400.rank)
  bcast_S1x400_S100000x400_0_1 : S1x400.BroadcastsInDim S100000x400 (![0, 1] : Fin 2 → Fin S100000x400.rank)
  transposes_S100000x512_S512x100000_1_0 : S100000x512.Transposes [1, 0] S512x100000
  bcast_S_S2048x100000 : S_.BroadcastsInDim S2048x100000 (![] : Fin 0 → Fin S2048x100000.rank)
  transposes_S400x512_S512x400_1_0 : S400x512.Transposes [1, 0] S512x400
  bcast_S_S2048x400 : S_.BroadcastsInDim S2048x400 (![] : Fin 0 → Fin S2048x400.rank)
  dot_S2048x512_S512x100000_S2048x100000_1_0_0_1_n_n_wf : DotDims.WF S2048x512 S512x100000 S2048x100000 [1] [0] [0] [1] [] []
  dot_S2048x100000_S100000x400_S2048x400_1_0_0_1_n_n_wf : DotDims.WF S2048x100000 S100000x400 S2048x400 [1] [0] [0] [1] [] []
  dot_S2048x512_S512x400_S2048x400_1_0_0_1_n_n_wf : DotDims.WF S2048x512 S512x400 S2048x400 [1] [0] [0] [1] [] []

variable [Facts₀]

def dot_S2048x512_S512x100000_S2048x100000_1_0_0_1_n_n : DotDims S2048x512 S512x100000 S2048x100000 where
  lhsContracting := [1]
  rhsContracting := [0]
  lhsNonContracting := [0]
  rhsNonContracting := [1]
  lhsBatch := []
  rhsBatch := []
  wf := dot_S2048x512_S512x100000_S2048x100000_1_0_0_1_n_n_wf
def dot_S2048x100000_S100000x400_S2048x400_1_0_0_1_n_n : DotDims S2048x100000 S100000x400 S2048x400 where
  lhsContracting := [1]
  rhsContracting := [0]
  lhsNonContracting := [0]
  rhsNonContracting := [1]
  lhsBatch := []
  rhsBatch := []
  wf := dot_S2048x100000_S100000x400_S2048x400_1_0_0_1_n_n_wf
def dot_S2048x512_S512x400_S2048x400_1_0_0_1_n_n : DotDims S2048x512 S512x400 S2048x400 where
  lhsContracting := [1]
  rhsContracting := [0]
  lhsNonContracting := [0]
  rhsNonContracting := [1]
  lhsBatch := []
  rhsBatch := []
  wf := dot_S2048x512_S512x400_S2048x400_1_0_0_1_n_n_wf

class Facts : Prop extends Facts₀ where

variable [Facts]
-- ==== Proof.Pieces.lean ====
/-
  What each control case of the kernel body leaves behind, as values.

  The body keeps a [1024, 512] accumulator in scratch. At the first support block of a query tile it first stores
  the text term `first e t` (the first payload) into the accumulator; at every block it then stores
  `step e k labels acc` (the second payload: the accumulator it has just read plus the block's contribution); at
  the last block it copies the accumulator to the output's staging buffer. Every load and store goes through the
  whole buffer at zero offsets, so a covering store leaves exactly its payload and a load after it reads it back.
-/
import proofs.«158673_j42107859370333_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)

namespace Cert.KernelIdeal.Pieces

open Cert.KernelIdeal Cert.KernelIdeal.Gen

variable {F : FTy → Type} [FloatOps F]

/-- The zero offsets of a whole-buffer access, as the constant function. -/
theorem hz : (![0, 0] : Fin 2 → Nat) = fun _ => 0 := funext fun a => by fin_cases a <;> rfl

/-- A middle block: the accumulator `acc` the previous point left becomes `step` of the point's blocks and `acc`. -/
theorem scratch_B (c : Dev nD) (i : grid0.Coords) (arg2 : Memref sig .tc .vmem S1024x512 .f32) (harg2 : arg2.IsWhole) (arg3 : Memref sig .tc .vmem S1000x512 .f32) (harg3 : arg3.IsWhole) (arg4 : Memref sig .tc .vmem S512x512 .f32) (harg4 : arg4.IsWhole) (arg5 : Memref sig .tc .vmem S1000x1 .i32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : ¬cond0_1 i) (x0 : Vec F S1024x512 .f32) (x1 : Vec F S1000x512 .f32) (x2 : Vec F S512x512 .f32) (x3 : Vec F S1000x1 .i32) (xs0 : Vec F S1024x512 .f32) :
    sout0_B_0 c i arg2 harg2 arg3 harg3 arg4 harg4 arg5 harg5 arg6 harg6 arg7 harg7 hc0 hc1 x0 x1 x2 x3 xs0 = k0_pay2 x0 x1 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  rw [View.canon_unit_zero (S := S1024x512) hz]
  simp only [View.readAt_eq_ld, harg2.read_unread, harg3.read_unread, harg4.read_unread, harg5.read_unread, harg7.read_unread, View.ld_unit_zero (S := S1024x512) hz, View.ld_unit_zero (S := S1000x512) hz, View.ld_unit_zero (S := S512x512) hz, View.ld_unit_zero (S := S1000x1) hz]

/-- The first block of a tile: the accumulator is first set to the text term, read back, and stepped. -/
theorem scratch_A (c : Dev nD) (i : grid0.Coords) (arg2 : Memref sig .tc .vmem S1024x512 .f32) (harg2 : arg2.IsWhole) (arg3 : Memref sig .tc .vmem S1000x512 .f32) (harg3 : arg3.IsWhole) (arg4 : Memref sig .tc .vmem S512x512 .f32) (harg4 : arg4.IsWhole) (arg5 : Memref sig .tc .vmem S1000x1 .i32) (harg5 : arg5.IsWhole) (arg6 : Memref sig .tc .vmem S1024x512 .f32) (harg6 : arg6.IsWhole) (arg7 : Memref sig .tc .vmem S1024x512 .f32) (harg7 : arg7.IsWhole) (hc0 : cond0_0 i) (hc1 : ¬cond0_1 i) (x0 : Vec F S1024x512 .f32) (x1 : Vec F S1000x512 .f32) (x2 : Vec F S512x512 .f32) (x3 : Vec F S1000x1 .i32) :
    sout0_A_0 c i arg2 harg2 arg3 harg3 arg4 harg4 arg5 harg5 arg6 harg6 arg7 harg7 hc0 hc1 x0 x1 x2 x3 = k0_pay2 x0 x1 x3 (k0_pay1 x0 x2) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1024x512) hz, View.readCov_unit_zero (S := S1024x512) _ hz]
  simp only [View.readAt_eq_ld, harg2.read_unread, harg3.read_unread, harg4.read_unread, harg5.read_unread, harg7.read_unread, View.ld_unit_zero (S := S1024x512) hz, View.ld_unit_zero (S := S1000x512) hz, View.ld_unit_zero (S := S512x512) hz, View.ld_unit_zero (S := S1000x1) hz]

/-- The last block of a tile: the accumulator is stepped as at a middle block, -/
theorem scratch_C (c : Dev nD) (i : grid0.Coords) (arg2 : Memref sig .tc .vmem S1024x512 .f32) (harg2 : arg2.IsWhole) (arg3 : Memref sig .tc .vmem S1000x512 .f32) (harg3 : arg3.IsWhole) (arg4 : Memref sig .tc .vmem S512x512 .f32) (harg4 : arg4.IsWhole) (arg5 : Memref sig .tc .vmem S1000x1 .i32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : cond0_1 i) (x0 : Vec F S1024x512 .f32) (x1 : Vec F S1000x512 .f32) (x2 : Vec F S512x512 .f32) (x3 : Vec F S1000x1 .i32) (xs0 : Vec F S1024x512 .f32) :
    sout0_C_0 c i arg2 harg2 arg3 harg3 arg4 harg4 arg5 harg5 arg6 harg6 arg7 harg7 hc0 hc1 x0 x1 x2 x3 xs0 = k0_pay2 x0 x1 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S1024x512) hz]
  simp only [View.readAt_eq_ld, harg2.read_unread, harg3.read_unread, harg4.read_unread, harg5.read_unread, harg7.read_unread, View.ld_unit_zero (S := S1024x512) hz, View.ld_unit_zero (S := S1000x512) hz, View.ld_unit_zero (S := S512x512) hz, View.ld_unit_zero (S := S1000x1) hz]

/-- and the output's staging buffer receives the stepped accumulator, read back from scratch. -/
theorem out_C (c : Dev nD) (i : grid0.Coords) (arg2 : Memref sig .tc .vmem S1024x512 .f32) (harg2 : arg2.IsWhole) (arg3 : Memref sig .tc .vmem S1000x512 .f32) (harg3 : arg3.IsWhole) (arg4 : Memref sig .tc .vmem S512x512 .f32) (harg4 : arg4.IsWhole) (arg5 : Memref sig .tc .vmem S1000x1 .i32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : cond0_1 i) (x0 : Vec F S1024x512 .f32) (x1 : Vec F S1000x512 .f32) (x2 : Vec F S512x512 .f32) (x3 : Vec F S1000x1 .i32) (xs0 : Vec F S1024x512 .f32) :
    out0_C_4 c i arg2 harg2 arg3 harg3 arg4 harg4 arg5 harg5 arg6 harg6 arg7 harg7 hc0 hc1 x0 x1 x2 x3 xs0 = k0_pay2 x0 x1 x3 xs0 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S1024x512) hz, View.readCov_unit_zero (S := S1024x512) _ hz]
  simp only [View.readAt_eq_ld, harg2.read_unread, harg3.read_unread, harg4.read_unread, harg5.read_unread, harg7.read_unread, View.ld_unit_zero (S := S1024x512) hz, View.ld_unit_zero (S := S1000x512) hz, View.ld_unit_zero (S := S512x512) hz, View.ld_unit_zero (S := S1000x1) hz]

end Cert.KernelIdeal.Pieces

end
-- ==== Proof.Dots.lean ====
/-
  The body's three matrix products read at one entry, over the extended reals.

  Each `tpu.matmul` contracts the second axis of its left operand with the first axis of its right operand into a
  zero accumulator, so its entry (p, q) is the plain sum over the contracted index k of left(p, k) · right(k, q):
  the zero accumulator contributes `0 +`, and exact arithmetic leaves no trace of the hardware's passes or chunking.
-/
import proofs.«158673_j42107859370333_2_alg».proof.Proof.Gen.KernelIdeal
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.KernelIdeal.Dots

open Cert.KernelIdeal Cert.KernelIdeal.Gen

theorem textDot_lhs0 (i : S1024x512.Idx) (q : dot_S1024x512_S512x512_S1024x512_1_0_0_1_n_n.contr.Idx) : (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem textDot_rhs1 (i : S1024x512.Idx) (q : dot_S1024x512_S512x512_S1024x512_1_0_0_1_n_n.contr.Idx) : (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- Query tile [1024, 512] times the transposed text table [512, 512]. -/
theorem textDot (l : FVec Ideal S1024x512 .f32) (r : FVec Ideal S512x512 .f32) (prec : Option ContractPrecision) (p : Fin 1024) (q : Fin 512) :
    matmul dot_S1024x512_S512x512_S1024x512_1_0_0_1_n_n prec l r (constant (F := Ideal) S1024x512 .f32 0x00000000#32) (ix2 p q) = ∑ k : Fin 512, l (ix2 p k) * r (ix2 k q) := by
  simp only [matmul]
  rw [Ideal.matmul_constant_zero_apply, ← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 p q) ((ValueIdx.contrEquiv1 dot_S1024x512_S512x512_S1024x512_1_0_0_1_n_n 512 rfl rfl).symm k) = ix2 p k := funext fun a => Fin.ext (by
    match a with
    | ⟨0, _⟩ => exact textDot_lhs0 _ _
    | ⟨1, _⟩ => exact (dot_S1024x512_S512x512_S1024x512_1_0_0_1_n_n.lhsIdx_val_of_single rfl _ _).trans hk)
  have er : dot_S1024x512_S512x512_S1024x512_1_0_0_1_n_n.rhsIdx (ix2 p q) ((ValueIdx.contrEquiv1 dot_S1024x512_S512x512_S1024x512_1_0_0_1_n_n 512 rfl rfl).symm k) = ix2 k q := funext fun a => Fin.ext (by
    match a with
    | ⟨0, _⟩ => exact (dot_S1024x512_S512x512_S1024x512_1_0_0_1_n_n.rhsIdx_val_of_single rfl _ _).trans hk
    | ⟨1, _⟩ => exact textDot_rhs1 _ _)
  rw [el, er]

theorem affDot_lhs0 (i : S1024x1000.Idx) (q : dot_S1024x512_S512x1000_S1024x1000_1_0_0_1_n_n.contr.Idx) : (dot_S1024x512_S512x1000_S1024x1000_1_0_0_1_n_n.lhsIdx i q 0).val = (i 0).val := by
  unfold DotDims.lhsIdx
  rw [dif_neg (show ¬(0 : Fin S1024x512.rank) ∈ dot_S1024x512_S512x1000_S1024x1000_1_0_0_1_n_n.lhsBatch by decide), dif_pos (show (0 : Fin S1024x512.rank) ∈ dot_S1024x512_S512x1000_S1024x1000_1_0_0_1_n_n.lhsNonContracting by decide)]
  rfl
theorem affDot_rhs1 (i : S1024x1000.Idx) (q : dot_S1024x512_S512x1000_S1024x1000_1_0_0_1_n_n.contr.Idx) : (dot_S1024x512_S512x1000_S1024x1000_1_0_0_1_n_n.rhsIdx i q 1).val = (i 1).val := by
  unfold DotDims.rhsIdx
  rw [dif_neg (show ¬(1 : Fin S512x1000.rank) ∈ dot_S1024x512_S512x1000_S1024x1000_1_0_0_1_n_n.rhsBatch by decide), dif_pos (show (1 : Fin S512x1000.rank) ∈ dot_S1024x512_S512x1000_S1024x1000_1_0_0_1_n_n.rhsNonContracting by decide)]
  rfl

/-- Query tile [1024, 512] times the transposed support block [512, 1000]: the affinities. -/
theorem affDot (l : FVec Ideal S1024x512 .f32) (r : FVec Ideal S512x1000 .f32) (prec : Option ContractPrecision) (p : Fin 1024) (q : Fin 1000) :
    matmul dot_S1024x512_S512x1000_S1024x1000_1_0_0_1_n_n prec l r (constant (F := Ideal) S1024x1000 .f32 0x00000000#32) (ix2 p q) = ∑ k : Fin 512, l (ix2 p k) * r (ix2 k q) := by
  simp only [matmul]
  rw [Ideal.matmul_constant_zero_apply, ← Equiv.sum_comp (ValueIdx.contrEquiv1 dot_S1024x512_S512x1000_S1024x1000_1_0_0_1_n_n 512 rfl rfl).symm]
  refine Finset.sum_congr rfl fun k _ => ?_
  have hk := ValueIdx.contrEquiv1_symm_val dot_S1024x512_S512x1000_S1024x1000_1_0_0_1_n_n 512 rfl rfl k
  have el : dot_S1024x512_S512x1000_S1024x1000_1_0_0_1_n_n.lhsIdx (ix2 p q) ((ValueIdx.contrEquiv1 dot_S1024x512_S512x1000_S1024x1000_1_0_0_1_n_n 512 rfl rfl).symm k) = ix2 p k := funext fun a => Fin.ext (by
    match a with
    | ⟨0, _⟩ => exact affDot_lhs0 _ _
    | ⟨1, _⟩ => exact (dot_S1024x512_S512x1000_S1024x1000_1_0_0_1_n_n.lhsIdx_val_of_single rfl _ _).trans hk)
  have er : dot_S1024x512_S512x1000_S1024x1000_1_0_0_1_n_n.rhsIdx (ix2 p q) ((ValueIdx.contrEquiv1 dot_S1024x512_S512x1000_S1024x1000_1_0_0_1_n_n 512 rfl rfl).symm k) = ix2 k q := funext fun a => Fin.ext (by
    match a with
    | ⟨0, _⟩ => exact (dot_S1024x512_S512x1000_S1024x1000_1_0_0_1_n_n.rhsIdx_val_of_single rfl _ _).trans hk
    | ⟨1, _⟩ => exact affDot_rhs1 _ _)
  rw [el, er]

theorem hotDot_lhs0 (i : S1024x512.Idx) (q : dot_S1024x1000_S1000x512_S1024x512_1_0_0_1_n_n.contr.Idx) : (dot_S1024x1000_S1000x512_S1024x512_1_0_0_1_n_n.lhsIdx i q 0).val = (i 0).val := by
  unfold DotDims.lhsIdx
  rw [dif_neg (show ¬(0 : Fin S1024x1000.rank) ∈ dot_S1024x1000_S1000x512_S1024x512_1_0_0_1_n_n.lhsBatch by decide), dif_pos (show (0 : Fin S1024x1000.rank) ∈ dot_S1024x1000_S1000x512_S1024x512_1_0_0_1_n_n.lhsNonContracting by decide)]
  rfl
theorem hotDot_rhs1 (i : S1024x512.Idx) (q : dot_S1024x1000_S1000x512_S1024x512_1_0_0_1_n_n.contr.Idx) : (dot_S1024x1000_S1000x512_S1024x512_1_0_0_1_n_n.rhsIdx i q 1).val = (i 1).val := by
  unfold DotDims.rhsIdx
  rw [dif_neg (show ¬(1 : Fin S1000x512.rank) ∈ dot_S1024x1000_S1000x512_S1024x512_1_0_0_1_n_n.rhsBatch by decide), dif_pos (show (1 : Fin S1000x512.rank) ∈ dot_S1024x1000_S1000x512_S1024x512_1_0_0_1_n_n.rhsNonContracting by decide)]
  rfl

/-- Cache weights [1024, 1000] times the block's one-hot labels [1000, 512]. -/
theorem hotDot (l : FVec Ideal S1024x1000 .f32) (r : FVec Ideal S1000x512 .f32) (prec : Option ContractPrecision) (p : Fin 1024) (q : Fin 512) :
    matmul dot_S1024x1000_S1000x512_S1024x512_1_0_0_1_n_n prec l r (constant (F := Ideal) S1024x512 .f32 0x00000000#32) (ix2 p q) = ∑ k : Fin 1000, l (ix2 p k) * r (ix2 k q) := by
  simp only [matmul]
  rw [Ideal.matmul_constant_zero_apply, ← Equiv.sum_comp (ValueIdx.contrEquiv1 dot_S1024x1000_S1000x512_S1024x512_1_0_0_1_n_n 1000 rfl rfl).symm]
  refine Finset.sum_congr rfl fun k _ => ?_
  have hk := ValueIdx.contrEquiv1_symm_val dot_S1024x1000_S1000x512_S1024x512_1_0_0_1_n_n 1000 rfl rfl k
  have el : dot_S1024x1000_S1000x512_S1024x512_1_0_0_1_n_n.lhsIdx (ix2 p q) ((ValueIdx.contrEquiv1 dot_S1024x1000_S1000x512_S1024x512_1_0_0_1_n_n 1000 rfl rfl).symm k) = ix2 p k := funext fun a => Fin.ext (by
    match a with
    | ⟨0, _⟩ => exact hotDot_lhs0 _ _
    | ⟨1, _⟩ => exact (dot_S1024x1000_S1000x512_S1024x512_1_0_0_1_n_n.lhsIdx_val_of_single rfl _ _).trans hk)
  have er : dot_S1024x1000_S1000x512_S1024x512_1_0_0_1_n_n.rhsIdx (ix2 p q) ((ValueIdx.contrEquiv1 dot_S1024x1000_S1000x512_S1024x512_1_0_0_1_n_n 1000 rfl rfl).symm k) = ix2 k q := funext fun a => Fin.ext (by
    match a with
    | ⟨0, _⟩ => exact (dot_S1024x1000_S1000x512_S1024x512_1_0_0_1_n_n.rhsIdx_val_of_single rfl _ _).trans hk
    | ⟨1, _⟩ => exact hotDot_rhs1 _ _)
  rw [el, er]

end Cert.KernelIdeal.Dots

end
-- ==== Proof.Spec.lean ====
/-
  What both programs compute, as a function of the argument arrays, and the one law that joins their arrangements.

  For a query row `i` and a class `cls`:
    logit i cls = 100 · ⟨e_i, t_cls⟩ + 1 · Σ_j exp(-5.5 · (1 - ⟨e_i, k_j⟩)) · [label_j = cls]
  over the extended reals. The reference sums over all 100000 support rows at once; the kernel visits them in 100
  consecutive blocks of 1000, adding `1 · (block sum)` to a running accumulator that starts at the text term.
  Addition of extended reals is commutative and associative and `1 · x = x`, so the two agree with no finiteness
  hypothesis: the only facts used are that a sum over `Fin 100000` is the sum of its 100 consecutive blocks, and that
  the word `0x3F800000` denotes `1`.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Spec

/-- The scale of the text term, `100.0`. -/
abbrev cScale : EReal := Ideal.ofBits .f32 0x42C80000#32
/-- The word `1.0`: the minuend inside the exponent and the factor in front of the cache term. -/
abbrev cOne : EReal := Ideal.ofBits .f32 0x3F800000#32
/-- The sharpness `-5.5`. -/
abbrev cBeta : EReal := Ideal.ofBits .f32 0xC0B00000#32

/-- `1.0` denotes the extended real `1`. -/
theorem cOne_eq : cOne = 1 := by
  simp [cOne, Ideal.ofBits, Ideal.ieee, -EReal.coe_mul]; norm_num

/-- A one-hot entry: the comparison bit of a label word against a class index, read unsigned. -/
def hot (lab : BitVec 32) (cls : ℕ) : EReal := (((IntOp.cmpi .eq lab (BitVec.ofNat 32 cls)).toNat : ℝ) : EReal)

/-- A comparison bit widened to 32 bits and read signed is the bit read unsigned: both are 0 or 1. -/
theorem toInt_setWidth_bit (w : BitVec 1) : (((w.setWidth 32).toInt : ℝ) : EReal) = ((w.toNat : ℝ) : EReal) := by
  rcases BitVec.eq_zero_or_eq_one w with rfl | rfl <;> simp

variable (E : (⟨2, ![2048, 512]⟩ : Shape).Idx → EReal) (K : (⟨2, ![100000, 512]⟩ : Shape).Idx → EReal)

/-- The inner product of query row `i` with support row `j`. -/
def affinity (i : Fin 2048) (j : Fin 100000) : EReal := ∑ d : Fin 512, E (ix2 i d) * K (ix2 j d)

/-- The cache weight `exp(-5.5 · (1 - affinity))`. -/
def weight (i : Fin 2048) (j : Fin 100000) : EReal := Ideal.exp (cBeta * (cOne - affinity E K i j))

/-- The text term for a class whose embedding row is `tr`. -/
def textLogit (tr : Fin 512 → EReal) (i : Fin 2048) : EReal := cScale * ∑ d : Fin 512, E (ix2 i d) * tr d

/-- Support row `r` of block `s` (the remainder only makes the function total: for `s < 100` it is `1000 s + r`). -/
def rowK (s : ℕ) (r : Fin 1000) : Fin 100000 := ⟨(1000 * s + r.val) % 100000, Nat.mod_lt _ (by decide)⟩

theorem rowK_val {s : ℕ} (hs : s < 100) (r : Fin 1000) : (rowK s r).val = 1000 * s + r.val := by
  have := r.isLt
  show (1000 * s + r.val) % 100000 = _
  exact Nat.mod_eq_of_lt (by omega)

variable (lab : Fin 100000 → BitVec 32)

/-- What one grid step adds to the accumulator: `1 ·` the block's weighted one-hot sum. -/
def blockTerm (i : Fin 2048) (cls : ℕ) (s : ℕ) : EReal :=
  cOne * ∑ r : Fin 1000, weight E K i (rowK s r) * hot (lab (rowK s r)) cls

/-- The accumulator after blocks `0 … n`. -/
def accAfter (tr : Fin 512 → EReal) (i : Fin 2048) (cls : ℕ) (n : ℕ) : EReal :=
  textLogit E tr i + ∑ s ∈ Finset.range (n + 1), blockTerm E K lab i cls s

/-- The reference's value. -/
def total (tr : Fin 512 → EReal) (i : Fin 2048) (cls : ℕ) : EReal :=
  textLogit E tr i + cOne * ∑ j : Fin 100000, weight E K i j * hot (lab j) cls

theorem accAfter_zero (tr : Fin 512 → EReal) (i : Fin 2048) (cls : ℕ) :
    accAfter E K lab tr i cls 0 = textLogit E tr i + blockTerm E K lab i cls 0 := by
  unfold accAfter; rw [Finset.sum_range_one]

theorem accAfter_succ (tr : Fin 512 → EReal) (i : Fin 2048) (cls : ℕ) (n : ℕ) :
    accAfter E K lab tr i cls (n + 1) = accAfter E K lab tr i cls n + blockTerm E K lab i cls (n + 1) := by
  unfold accAfter; rw [Finset.sum_range_succ _ (n + 1), add_assoc]

/-- A sum over the 100000 support rows is the sum of its 100 consecutive blocks of 1000. -/
theorem sum_blocks {M : Type*} [AddCommMonoid M] (f : Fin 100000 → M) :
    ∑ j, f j = ∑ s ∈ Finset.range 100, ∑ r : Fin 1000, f (rowK s r) := by
  rw [← Fin.sum_univ_eq_sum_range (fun s => ∑ r : Fin 1000, f (rowK s r)) 100]
  rw [← Fintype.sum_prod_type' (fun (s : Fin 100) (r : Fin 1000) => f (rowK s.val r))]
  refine (Fintype.sum_equiv (finProdFinEquiv (m := 100) (n := 1000)) _ _ fun x => ?_).symm
  refine congrArg f (Fin.ext ?_)
  rw [rowK_val x.1.isLt, finProdFinEquiv_apply_val]
  omega

/-- After the last block the accumulator is the reference's value. -/
theorem accAfter_last (tr : Fin 512 → EReal) (i : Fin 2048) (cls : ℕ) :
    accAfter E K lab tr i cls 99 = total E K lab tr i cls := by
  unfold accAfter total blockTerm
  rw [cOne_eq]
  simp only [one_mul]
  rw [sum_blocks (fun j => weight E K i j * hot (lab j) cls)]

end Cert.Spec

end
-- ==== Proof.Payload.lean ====
/-
  The body's two stored values read at one entry (p, q) of the [1024, 512] accumulator, over the extended reals.

  `first e t` is the text term: 100 · Σ_d e(p, d) · t(q, d) — the transpose inside the body turns the text table's
  row q into the column the product contracts with.
  `step e k labels acc` adds to the accumulator 1 · Σ_r exp(-5.5 · (1 - Σ_d e(p, d) · k(r, d))) · [labels(r) = q]:
  the affinity of query row p with support row r, the exponential weight, and the one-hot entry obtained by
  comparing the label column (broadcast along the class axis) with the class index (an iota along it), widening the
  comparison bit and converting it — which reads 0 or 1 either signed or unsigned.
-/
import proofs.«158673_j42107859370333_2_alg».proof.Proof.Gen.KernelIdeal.Skeleton
import proofs.«158673_j42107859370333_2_alg».proof.Proof.Dots
import proofs.«158673_j42107859370333_2_alg».proof.Proof.Spec
import Idealize.ShloMosaic.Lib.ValueIdx
import Idealize.ShloMosaic.Lib.Pipeline.Value

noncomputable section

open scoped BigOperators
open Idealize.ShloMosaic Idealize.ShloMosaic.ValueIdx

namespace Cert.KernelIdeal.Payload

open Cert.KernelIdeal Cert.KernelIdeal.Gen Cert.Spec

/-- The transposed text table at (d, q) is the table at (q, d). -/
theorem textT_apply (t : FVec Ideal S512x512 .f32) (d q : Fin 512) :
    transpose S512x512 [1, 0] t transposes_S512x512_p1_0_S512x512 (ix2 d q) = t (ix2 q d) :=
  transpose_apply [1, 0] t transposes_S512x512_p1_0_S512x512 (ix2 d q) (ix2 q d) (fun b => match b with
    | ⟨0, _⟩ => rfl
    | ⟨1, _⟩ => rfl)

/-- The transposed support block at (d, r) is the block at (r, d). -/
theorem keysT_apply (k : FVec Ideal S1000x512 .f32) (d : Fin 512) (r : Fin 1000) :
    transpose S512x1000 [1, 0] k transposes_S1000x512_p1_0_S512x1000 (ix2 d r) = k (ix2 r d) :=
  transpose_apply [1, 0] k transposes_S1000x512_p1_0_S512x1000 (ix2 d r) (ix2 r d) (fun b => match b with
    | ⟨0, _⟩ => rfl
    | ⟨1, _⟩ => rfl)

/-- The label column broadcast along the class axis reads, at (r, q), the label of support row r. -/
theorem labels_bcast_apply (lb : IVec S1000x1 32) (r : Fin 1000) (q : Fin 512) :
    broadcastTo S1000x512 lb broadcasts_S1000x1_S1000x512 (ix2 r q) = lb (ix2 r 0) :=
  broadcastTo_apply lb broadcasts_S1000x1_S1000x512 (ix2 r q) (ix2 r 0) (fun a => match a with
    | ⟨0, _⟩ => by show r.val = if (1000 : Nat) = 1 then 0 else r.val; rw [if_neg (by decide)]
    | ⟨1, _⟩ => by show 0 = if (1 : Nat) = 1 then 0 else q.val; rw [if_pos rfl])

/-- The first stored value: the text term. -/
theorem first_apply (e : Vec Ideal S1024x512 .f32) (t : Vec Ideal S512x512 .f32) (p : Fin 1024) (q : Fin 512) :
    k0_pay1 e t (ix2 p q) = cScale * ∑ d : Fin 512, e (ix2 p d) * t (ix2 q d) := by
  unfold k0_pay1
  simp only [shapeCast_self]
  refine (mulf_apply _ _ _).trans (congrArg (cScale * ·) ?_)
  refine (Dots.textDot _ _ _ p q).trans (Finset.sum_congr rfl fun d _ => ?_)
  exact congrArg (e (ix2 p d) * ·) (textT_apply t d q)

/-- The second stored value: the accumulator plus one block's contribution. -/
theorem step_apply (e : Vec Ideal S1024x512 .f32) (k : Vec Ideal S1000x512 .f32) (lb : Vec Ideal S1000x1 .i32)
    (acc : Vec Ideal S1024x512 .f32) (p : Fin 1024) (q : Fin 512) :
    k0_pay2 e k lb acc (ix2 p q)
      = acc (ix2 p q) + cOne * ∑ r : Fin 1000,
          Ideal.exp (cBeta * (cOne - ∑ d : Fin 512, e (ix2 p d) * k (ix2 r d))) * hot (lb (ix2 r 0)) q.val := by
  unfold k0_pay2
  simp only [shapeCast_self]
  refine (addf_apply _ _ _).trans (congrArg (acc (ix2 p q) + ·) ?_)
  refine (mulf_apply _ _ _).trans (congrArg (cOne * ·) ?_)
  refine (Dots.hotDot _ _ _ p q).trans (Finset.sum_congr rfl fun r _ => ?_)
  refine congrArg₂ (· * ·) ?_ ?_
  · show Ideal.exp (cBeta * (cOne - matmul dot_S1024x512_S512x1000_S1024x1000_1_0_0_1_n_n (some .fp32) e
        (transpose S512x1000 [1, 0] k transposes_S1000x512_p1_0_S512x1000) (constant (F := Ideal) S1024x1000 .f32 0x00000000#32) (ix2 p r))) = _
    refine congrArg (fun z => Ideal.exp (cBeta * (cOne - z))) ?_
    refine (Dots.affDot _ _ _ p r).trans (Finset.sum_congr rfl fun d _ => ?_)
    exact congrArg (e (ix2 p d) * ·) (keysT_apply k d r)
  · show ((((IntOp.cmpi .eq (broadcastTo S1000x512 lb broadcasts_S1000x1_S1000x512 (ix2 r q))
        (iota .tc S1000x512 32 [1] iota_S1000x512_d1_w32 (ix2 r q))).setWidth 32).toInt : ℝ) : EReal) = _
    rw [labels_bcast_apply lb r q, iota_single_apply]
    exact toInt_setWidth_bit _

end Cert.KernelIdeal.Payload

end
-- ==== Proof.Blocks.lean ====
/-
  Which entries of the arrays each grid point reads.

  The grid is 2 query tiles × 100 support blocks, visited tile by tile: point `t` works on query tile `t / 100` and
  support block `t % 100`. Its query block is rows `1024 · (t / 100) + p` of the queries, its support block rows
  `1000 · (t % 100) + r` of the support keys and of the label column, and the text table is read whole. Two of the
  arrays are prepared before the kernel is launched: the text table padded with 112 zero rows below (so rows 0 … 399
  are the table's own), and the labels reshaped to a column.
-/
import proofs.«158673_j42107859370333_2_alg».proof.Proof.Gen.KernelIdeal.Frame
import proofs.«158673_j42107859370333_2_alg».proof.Proof.Spec
import Idealize.ShloMosaic.Lib.ValueIdx
import Idealize.ShloMosaic.Lib.Pipeline.Value
import Idealize.ShloMosaic.Lib.KernelVsHost
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.Spec

variable {F : FTy → Type} [FloatOps F]
variable (m : (ℓ : Loc nD τ sig) → Buf (Elt F) ℓ)

/-- Query row `p` of the tile grid point `t` works on (the remainder only makes the function total). -/
def rowE (t : ℕ) (p : Fin 1024) : Fin 2048 := ⟨(1024 * (t / 100) + p.val) % 2048, Nat.mod_lt _ (by decide)⟩

theorem rowE_val {t : ℕ} (ht : t < 200) (p : Fin 1024) : (rowE t p).val = 1024 * (t / 100) + p.val := by
  have := p.isLt
  show (1024 * (t / 100) + p.val) % 2048 = _
  exact Nat.mod_eq_of_lt (by omega)

/-! ## The block indices, decided over the 200 grid points -/

theorem idxE : ∀ t : Fin cfg0.N, win0_0.index t 0 = t.val / 100 ∧ win0_0.index t 1 = 0 :=
  (by decide +kernel : ∀ t : Fin grid0.N, win0_0.index t 0 = t.val / 100 ∧ win0_0.index t 1 = 0)
theorem idxK : ∀ t : Fin cfg0.N, win0_1.index t 0 = t.val % 100 ∧ win0_1.index t 1 = 0 :=
  (by decide +kernel : ∀ t : Fin grid0.N, win0_1.index t 0 = t.val % 100 ∧ win0_1.index t 1 = 0)
theorem idxT : ∀ t : Fin cfg0.N, win0_2.index t 0 = 0 ∧ win0_2.index t 1 = 0 :=
  (by decide +kernel : ∀ t : Fin grid0.N, win0_2.index t 0 = 0 ∧ win0_2.index t 1 = 0)
theorem idxL : ∀ t : Fin cfg0.N, win0_3.index t 0 = t.val % 100 ∧ win0_3.index t 1 = 0 :=
  (by decide +kernel : ∀ t : Fin grid0.N, win0_3.index t 0 = t.val % 100 ∧ win0_3.index t 1 = 0)
theorem idxO : ∀ t : Fin cfg0.N, win0_4.index t 0 = t.val / 100 ∧ win0_4.index t 1 = 0 :=
  (by decide +kernel : ∀ t : Fin grid0.N, win0_4.index t 0 = t.val / 100 ∧ win0_4.index t 1 = 0)

/-! ## The input blocks at an entry -/

/-- The query block at point `t`. -/
theorem blkE (c : Dev nD) (t : Fin cfg0.N) (p : Fin 1024) (d : Fin 512) :
    (iblk m c 0 t : Vec F S1024x512 .f32) (ix2 p d) = V m c main_arg0 (ix2 (rowE t.val p) d) := by
  have hN : t.val < 200 := lt_of_lt_of_eq t.isLt (show cfg0.N = 200 from N_0)
  unfold iblk
  rw [View.read_apply]
  show V m c main_arg0 _ = V m c main_arg0 _
  refine congrArg (V m c main_arg0) (funext fun a => Fin.ext ?_)
  match a with
  | ⟨0, _⟩ => show win0_0.index t 0 * 1024 + 1 * p.val = (rowE t.val p).val; rw [(idxE t).1, rowE_val hN]; omega
  | ⟨1, _⟩ => show win0_0.index t 1 * 512 + 1 * d.val = d.val; rw [(idxE t).2]; omega

/-- The support block at point `t`. -/
theorem blkK (c : Dev nD) (t : Fin cfg0.N) (r : Fin 1000) (d : Fin 512) :
    (iblk m c 1 t : Vec F S1000x512 .f32) (ix2 r d) = V m c main_arg1 (ix2 (rowK (t.val % 100) r) d) := by
  have hs : t.val % 100 < 100 := Nat.mod_lt _ (by decide)
  unfold iblk
  rw [View.read_apply]
  show V m c main_arg1 _ = V m c main_arg1 _
  refine congrArg (V m c main_arg1) (funext fun a => Fin.ext ?_)
  match a with
  | ⟨0, _⟩ => show win0_1.index t 0 * 1000 + 1 * r.val = (rowK (t.val % 100) r).val; rw [(idxK t).1, rowK_val hs]; omega
  | ⟨1, _⟩ => show win0_1.index t 1 * 512 + 1 * d.val = d.val; rw [(idxK t).2]; omega

/-- The text table is read whole at every point. -/
theorem blkT (c : Dev nD) (t : Fin cfg0.N) (q : Fin 512) (d : Fin 512) :
    (iblk m c 2 t : Vec F S512x512 .f32) (ix2 q d) = V m c main_v0 (ix2 q d) := by
  unfold iblk
  rw [View.read_apply]
  show V m c main_v0 _ = V m c main_v0 _
  refine congrArg (V m c main_v0) (funext fun a => Fin.ext ?_)
  match a with
  | ⟨0, _⟩ => show win0_2.index t 0 * 512 + 1 * q.val = q.val; rw [(idxT t).1]; omega
  | ⟨1, _⟩ => show win0_2.index t 1 * 512 + 1 * d.val = d.val; rw [(idxT t).2]; omega

/-- The label block at point `t`. -/
theorem blkL (c : Dev nD) (t : Fin cfg0.N) (r : Fin 1000) :
    (iblk m c 3 t : Vec F S1000x1 .i32) (ix2 r 0) = V m c main_v1 (ix2 (rowK (t.val % 100) r) 0) := by
  have hs : t.val % 100 < 100 := Nat.mod_lt _ (by decide)
  unfold iblk
  rw [View.read_apply]
  show V m c main_v1 _ = V m c main_v1 _
  refine congrArg (V m c main_v1) (funext fun a => Fin.ext ?_)
  match a with
  | ⟨0, _⟩ => show win0_3.index t 0 * 1000 + 1 * r.val = (rowK (t.val % 100) r).val; rw [(idxL t).1, rowK_val hs]; omega
  | ⟨1, _⟩ => show win0_3.index t 1 * 1 + 1 * 0 = 0; rw [(idxL t).2]

/-! ## The two arrays prepared before the launch -/

/-- Rows 0 … 399 of the padded text table are the text table's rows. -/
theorem textPad_apply (c : Dev nD) (q : Fin 400) (d : Fin 512) :
    V m c main_v0 (ix2 (⟨q.val, by have := q.isLt; omega⟩ : Fin 512) d) = m ((c : Thread nD τ).loc main_arg2) (ix2 q d) := by
  have e : (V m c main_v0 : S512x512.Idx → Elt F .f32)
      = pad S512x512 ![0, 0] ![112, 0] ![0, 0] (m ((c : Thread nD τ).loc main_arg2))
          ((sitofp .f32 (constantI S_ 32 0#32) : FVec F S_ .f32)) pads_S400x512_S512x512_01120_000 h_S_ := by
    dsimp only [V, V0]
    simp only [hostOps0, hostOps0_1, hostOps0_2, List.flatten_cons, List.flatten_nil, List.append_nil, List.cons_append,
      List.nil_append]
    after_results
    rfl
  rw [e]
  exact pad_apply_of_inside _ _ _ _ _ _ _ _ (ix2 q d) (fun a => match a with
    | ⟨0, _⟩ => by show q.val = 0 + q.val * (0 + 1); omega
    | ⟨1, _⟩ => by show d.val = 0 + d.val * (0 + 1); omega)

/-- The label column at row `j` is label `j`. -/
theorem labelCol_apply (c : Dev nD) (j : Fin 100000) :
    V m c main_v1 (ix2 j 0) = m ((c : Thread nD τ).loc main_arg3) (ix1 j) := by
  have e : (V m c main_v1 : S100000x1.Idx → Elt F .i32)
      = shapeCast S100000x1 (m ((c : Thread nD τ).loc main_arg3)) shapeCasts_S100000_S100000x1 := by
    dsimp only [V, V0]
    simp only [hostOps0, hostOps0_1, hostOps0_2, List.flatten_cons, List.flatten_nil, List.append_nil, List.cons_append,
      List.nil_append]
    after_results
    rfl
  rw [e]
  refine shapeCast_apply _ _ (ix2 j 0) (ix1 j) ?_
  rw [Shape.rowMajor_val_one, Shape.rowMajor_val_two]
  show j.val = j.val * 1 + 0
  omega

end Cert.KernelIdeal.Blocks

end
-- ==== Proof.Invariant.lean ====
/-
  The accumulator, grid point by grid point.

  Within a query tile the 100 support blocks are visited in order, and after the block numbered s = t % 100 the
  scratch accumulator's entry (p, q) is
      text(p, q) + Σ_{s' ≤ s} block(s')(p, q),
  the text term of query row 1024 · (t / 100) + p and class q plus the contributions of the blocks seen so far:
  the first block's point stores the text term and adds block 0, every later point adds its own block to what the
  point before left. By induction on the point. At the tile's last block the output's staging buffer receives the
  same value, which by the regrouping law is the reference's total for that row and class.
-/
import proofs.«158673_j42107859370333_2_alg».proof.Proof.Pieces
import proofs.«158673_j42107859370333_2_alg».proof.Proof.Payload
import proofs.«158673_j42107859370333_2_alg».proof.Proof.Blocks
import proofs.«158673_j42107859370333_2_alg».proof.Proof.Spec

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Invariant

open Cert.KernelIdeal Cert.KernelIdeal.Gen Cert.Spec Cert.KernelIdeal.Blocks

/-! ## Which stored value the scratch holds after a point, case by case (any float instance) -/

section Cases
variable {F : FTy → Type} [FloatOps F]
variable (m : (ℓ : Loc nD τ sig) → Buf (Elt F) ℓ)

theorem scratch_first (c : Dev nD) (t : Fin cfg0.N) (h0 : t.val % 100 = 0) (h1 : ¬t.val % 100 = 99) :
    (outsAt0 m c t.val t.isLt).2 = k0_pay2 (iblk m c 0 t) (iblk m c 1 t) (iblk m c 3 t) (k0_pay1 (iblk m c 0 t) (iblk m c 2 t)) := by
  rw [outsAt0_A m c t h0 h1]
  dsimp only
  exact Pieces.scratch_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

theorem scratch_middle (c : Dev nD) (t : Fin cfg0.N) (h0 : ¬t.val % 100 = 0) (h1 : ¬t.val % 100 = 99) :
    (outsAt0 m c t.val t.isLt).2 = k0_pay2 (iblk m c 0 t) (iblk m c 1 t) (iblk m c 3 t) (outsAt0 m c (t.val - 1) (Nat.lt_of_le_of_lt (Nat.sub_le _ _) t.isLt)).2 := by
  rw [outsAt0_B m c t h0 h1]
  dsimp only
  exact Pieces.scratch_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

theorem scratch_last (c : Dev nD) (t : Fin cfg0.N) (h0 : ¬t.val % 100 = 0) (h1 : t.val % 100 = 99) :
    (outsAt0 m c t.val t.isLt).2 = k0_pay2 (iblk m c 0 t) (iblk m c 1 t) (iblk m c 3 t) (outsAt0 m c (t.val - 1) (Nat.lt_of_le_of_lt (Nat.sub_le _ _) t.isLt)).2 := by
  rw [outsAt0_C m c t h0 h1]
  dsimp only
  exact Pieces.scratch_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

theorem staged_last (c : Dev nD) (t : Fin cfg0.N) (h0 : ¬t.val % 100 = 0) (h1 : t.val % 100 = 99) :
    (outsAt0 m c t.val t.isLt).1 = k0_pay2 (iblk m c 0 t) (iblk m c 1 t) (iblk m c 3 t) (outsAt0 m c (t.val - 1) (Nat.lt_of_le_of_lt (Nat.sub_le _ _) t.isLt)).2 := by
  rw [outsAt0_C m c t h0 h1]
  dsimp only
  exact Pieces.out_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

end Cases

/-! ## The running sum, over the extended reals -/

variable (m : (ℓ : Loc nD τ sig) → Buf (Elt Ideal) ℓ)

/-- The label of support row `j`, off the label column the region finds. -/
abbrev labOf (c : Dev nD) : Fin 100000 → BitVec 32 := fun j => V m c main_v1 (ix2 j 0)
/-- Row `q` of the (padded) text table the region finds. -/
abbrev textRow (c : Dev nD) (q : Fin 512) : Fin 512 → EReal := fun d => V m c main_v0 (ix2 q d)

/-- The first stored value at point `t` is the text term of the point's query rows. -/
theorem first_at (c : Dev nD) (t : Fin cfg0.N) (p : Fin 1024) (q : Fin 512) :
    k0_pay1 (iblk m c 0 t) (iblk m c 2 t) (ix2 p q) = textLogit (V m c main_arg0) (textRow m c q) (rowE t.val p) :=
  (Payload.first_apply (iblk m c 0 t) (iblk m c 2 t) p q).trans
    (congrArg (cScale * ·) (Finset.sum_congr rfl fun d _ => congrArg₂ (· * ·) (blkE m c t p d) (blkT m c t q d)))

/-- The second stored value at point `t` adds the point's block to the accumulator. -/
theorem step_at (c : Dev nD) (t : Fin cfg0.N) (acc : Vec Ideal S1024x512 .f32) (p : Fin 1024) (q : Fin 512) :
    k0_pay2 (iblk m c 0 t) (iblk m c 1 t) (iblk m c 3 t) acc (ix2 p q)
      = acc (ix2 p q) + blockTerm (V m c main_arg0) (V m c main_arg1) (labOf m c) (rowE t.val p) q.val (t.val % 100) := by
  refine (Payload.step_apply (iblk m c 0 t) (iblk m c 1 t) (iblk m c 3 t) acc p q).trans ?_
  unfold blockTerm weight affinity
  refine congrArg (acc (ix2 p q) + ·) (congrArg (cOne * ·) (Finset.sum_congr rfl fun r _ => ?_))
  refine congrArg₂ (· * ·) (congrArg (fun z => Ideal.exp (cBeta * (cOne - z))) (Finset.sum_congr rfl fun d _ => ?_)) ?_
  · exact congrArg₂ (· * ·) (blkE m c t p d) (blkK m c t r d)
  · exact congrArg (fun w => hot w q.val) (blkL m c t r)

/-- A later point of a tile works on the same query rows as the point before it. -/
theorem rowE_succ {n : ℕ} (h0 : ¬(n + 1) % 100 = 0) (p : Fin 1024) : rowE (n + 1) p = rowE n p := by
  refine Fin.ext ?_
  show (1024 * ((n + 1) / 100) + p.val) % 2048 = (1024 * (n / 100) + p.val) % 2048
  have : (n + 1) / 100 = n / 100 := by omega
  rw [this]

/-- THE INVARIANT: after grid point `n` the accumulator holds the text term plus blocks 0 … n % 100. -/
theorem acc_eq (c : Dev nD) : ∀ (n : ℕ) (hn : n < cfg0.N) (p : Fin 1024) (q : Fin 512),
    ((outsAt0 m c n hn).2 : Vec Ideal S1024x512 .f32) (ix2 p q)
      = accAfter (V m c main_arg0) (V m c main_arg1) (labOf m c) (textRow m c q) (rowE n p) q.val (n % 100)
  | 0, hn, p, q => by
    refine (congrFun (scratch_first m c ⟨0, hn⟩ rfl (show ¬(0 : ℕ) % 100 = 99 by decide)) (ix2 p q)).trans ?_
    refine (step_at m c ⟨0, hn⟩ _ p q).trans ?_
    rw [first_at m c ⟨0, hn⟩ p q]
    exact (accAfter_zero (V m c main_arg0) (V m c main_arg1) (labOf m c) (textRow m c q) (rowE 0 p) q.val).symm
  | n + 1, hn, p, q => by
    have hN : n + 1 < 200 := lt_of_lt_of_eq hn (show cfg0.N = 200 from N_0)
    by_cases h0 : (n + 1) % 100 = 0
    · have h1 : ¬(n + 1) % 100 = 99 := by omega
      refine (congrFun (scratch_first m c ⟨n + 1, hn⟩ h0 h1) (ix2 p q)).trans ?_
      refine (step_at m c ⟨n + 1, hn⟩ _ p q).trans ?_
      rw [first_at m c ⟨n + 1, hn⟩ p q]
      show _ = accAfter (V m c main_arg0) (V m c main_arg1) (labOf m c) (textRow m c q) (rowE (n + 1) p) q.val ((n + 1) % 100)
      rw [h0]
      exact (accAfter_zero (V m c main_arg0) (V m c main_arg1) (labOf m c) (textRow m c q) (rowE (n + 1) p) q.val).symm
    · have hs : (n + 1) % 100 = n % 100 + 1 := by omega
      have hprev : ((outsAt0 m c n (Nat.lt_of_succ_lt hn)).2 : Vec Ideal S1024x512 .f32) (ix2 p q)
          = accAfter (V m c main_arg0) (V m c main_arg1) (labOf m c) (textRow m c q) (rowE (n + 1) p) q.val (n % 100) := by
        rw [rowE_succ h0 p]; exact acc_eq c n (Nat.lt_of_succ_lt hn) p q
      have hstep : ∀ acc : Vec Ideal S1024x512 .f32, acc (ix2 p q) = accAfter (V m c main_arg0) (V m c main_arg1) (labOf m c) (textRow m c q) (rowE (n + 1) p) q.val (n % 100) →
          k0_pay2 (iblk m c 0 ⟨n + 1, hn⟩) (iblk m c 1 ⟨n + 1, hn⟩) (iblk m c 3 ⟨n + 1, hn⟩) acc (ix2 p q)
            = accAfter (V m c main_arg0) (V m c main_arg1) (labOf m c) (textRow m c q) (rowE (n + 1) p) q.val ((n + 1) % 100) := fun acc hacc => by
        refine (step_at m c ⟨n + 1, hn⟩ acc p q).trans ?_
        rw [hacc, hs]
        exact (accAfter_succ (V m c main_arg0) (V m c main_arg1) (labOf m c) (textRow m c q) (rowE (n + 1) p) q.val (n % 100)).symm
      by_cases h1 : (n + 1) % 100 = 99
      · refine (congrFun (scratch_last m c ⟨n + 1, hn⟩ h0 h1) (ix2 p q)).trans ?_
        exact hstep _ hprev
      · refine (congrFun (scratch_middle m c ⟨n + 1, hn⟩ h0 h1) (ix2 p q)).trans ?_
        exact hstep _ hprev

/-- At a tile's last block the output's staging buffer holds the reference's total for the tile's rows. -/
theorem staged_eq (c : Dev nD) (t : Fin cfg0.N) (h1 : t.val % 100 = 99) (p : Fin 1024) (q : Fin 512) :
    ((outsAt0 m c t.val t.isLt).1 : Vec Ideal S1024x512 .f32) (ix2 p q)
      = total (V m c main_arg0) (V m c main_arg1) (labOf m c) (textRow m c q) (rowE t.val p) q.val := by
  obtain ⟨n, hn⟩ := t
  have hN : n < 200 := lt_of_lt_of_eq hn (show cfg0.N = 200 from N_0)
  have h1' : n % 100 = 99 := h1
  cases n with
  | zero => exact absurd h1' (by decide)
  | succ k =>
    have h0 : ¬(k + 1) % 100 = 0 := by omega
    have hs : k % 100 = 98 := by omega
    refine (congrFun (staged_last m c ⟨k + 1, hn⟩ h0 h1') (ix2 p q)).trans ?_
    refine (step_at m c ⟨k + 1, hn⟩ _ p q).trans ?_
    have hprev : ((outsAt0 m c k (Nat.lt_of_succ_lt hn)).2 : Vec Ideal S1024x512 .f32) (ix2 p q)
        = accAfter (V m c main_arg0) (V m c main_arg1) (labOf m c) (textRow m c q) (rowE (k + 1) p) q.val 98 := by
      rw [rowE_succ h0 p, ← hs]; exact acc_eq m c k (Nat.lt_of_succ_lt hn) p q
    show ((outsAt0 m c k _).2 : Vec Ideal S1024x512 .f32) (ix2 p q) + blockTerm _ _ _ _ _ ((k + 1) % 100) = _
    rw [hprev, h1']
    rw [← accAfter_last (V m c main_arg0) (V m c main_arg1) (labOf m c) (textRow m c q) (rowE (k + 1) p) q.val]
    exact (accAfter_succ (V m c main_arg0) (V m c main_arg1) (labOf m c) (textRow m c q) (rowE (k + 1) p) q.val 98).symm

end Cert.KernelIdeal.Invariant

end
-- ==== Proof.Logits.lean ====
/-
  The result both programs are compared at: entry (i, c) of the [2048, 400] result is the total logit of query row i
  and class c, over the four argument arrays (queries, support keys, text table, labels).
-/
import proofs.«158673_j42107859370333_2_alg».proof.Proof.Spec

noncomputable section

open Idealize.ShloMosaic Idealize.ShloMosaic.ValueIdx

namespace Cert.Spec

/-- The logits as one function of the argument arrays. -/
def logits (E : (⟨2, ![2048, 512]⟩ : Shape).Idx → EReal) (K : (⟨2, ![100000, 512]⟩ : Shape).Idx → EReal)
    (T : (⟨2, ![400, 512]⟩ : Shape).Idx → EReal) (L : (⟨1, ![100000]⟩ : Shape).Idx → BitVec 32) :
    (⟨2, ![2048, 400]⟩ : Shape).Idx → EReal :=
  fun i => total E K (fun j => L (ix1 j)) (fun d => T (ix2 (i 1) d)) (i 0) (i 1).val

theorem logits_apply (E : (⟨2, ![2048, 512]⟩ : Shape).Idx → EReal) (K : (⟨2, ![100000, 512]⟩ : Shape).Idx → EReal)
    (T : (⟨2, ![400, 512]⟩ : Shape).Idx → EReal) (L : (⟨1, ![100000]⟩ : Shape).Idx → BitVec 32) (a : Fin 2048) (b : Fin 400) :
    logits E K T L (ix2 a b) = total E K (fun j => L (ix1 j)) (fun d => T (ix2 b d)) a b.val := rfl

end Cert.Spec

end
-- ==== Proof.Final.lean ====
/-
  From the per-point accumulator to the program's result.

  The output window's block at a point is rows 1024 · (t / 100) … of the [2048, 512] output, written back only at
  each tile's last support block (t % 100 = 99), where it holds the total logits of the tile's rows (classes padded
  to 512). The two write-backs cover the output, so after the region it is the padded logits everywhere; the slice
  that follows keeps classes 0 … 399, whose text rows are the text table's own and whose labels are the argument's.
-/
import proofs.«158673_j42107859370333_2_alg».proof.Proof.Invariant
import proofs.«158673_j42107859370333_2_alg».proof.Proof.Logits

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.Spec Cert.KernelIdeal.Blocks Cert.KernelIdeal.Invariant

variable (m : (ℓ : Loc nD τ sig) → Buf (Elt Ideal) ℓ) (ρ : Dev nD → PrngReg)

/-- The padded output: entry (i, q) is the total logit of query row i against row q of the padded text table. -/
def padded (c : Dev nD) : S2048x512.Idx → EReal :=
  fun y => total (V m c main_arg0) (V m c main_arg1) (labOf m c) (textRow m c (y 1)) (y 0) (y 1).val

/-- What a tile's last point writes back is its block of the padded output. -/
theorem flushed_eq (c : Dev nD) (t : Fin cfg0.N) (hf : (cfg0.win 4).flush t = true) :
    (dats m 0 c).flushed 4 t = ((cfg0.win 4).blk t).view.read (Elt Ideal) (padded m c) := by
  have h1 : t.val % 100 = 99 := (flush0_4 t).mp hf
  have hN : t.val < 200 := lt_of_lt_of_eq t.isLt (show cfg0.N = 200 from N_0)
  show (cfg0.win 4).cut (grid0.coords t) ((dats m 0 c).after 4 t) = _
  rw [after0_4]
  funext j
  show ((outsAt0 m c t.val t.isLt).1 : Vec Ideal S1024x512 .f32) j = padded m c (((cfg0.win 4).blk t).view.emb j)
  obtain ⟨p, q, rfl⟩ : ∃ (p : Fin 1024) (q : Fin 512), j = ix2 p q := ⟨j 0, j 1, eq_ix2 j⟩
  have hemb : ((cfg0.win 4).blk t).view.emb (ix2 p q) = ix2 (rowE t.val p) q := by
    funext a; apply Fin.ext
    match a with
    | ⟨0, _⟩ => show win0_4.index t 0 * 1024 + 1 * p.val = (rowE t.val p).val; rw [(idxO t).1, rowE_val hN]; omega
    | ⟨1, _⟩ => show win0_4.index t 1 * 512 + 1 * q.val = q.val; rw [(idxO t).2]; omega
  rw [hemb]
  exact staged_eq m c t h1 p q

/-- An entry is in a point's output block iff each coordinate is in the block's range. -/
theorem mem_blk (t : Fin cfg0.N) (i : S2048x512.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v2).slice (win0_4.rect t)).set ↔ _
  rw [View.set_slice_whole, Rect.mem_set_unit]
  exact Iff.rfl

/-- Every entry of the output is in the block written back at the last point of its row's tile. -/
theorem cover (i : S2048x512.Idx) : ∃ t : Fin cfg0.N, (cfg0.win 4).flush t = true ∧ i ∈ ((cfg0.win 4).blk t).view.set := by
  have hi0 : (i 0).val < 2048 := (i 0).isLt
  have hi1 : (i 1).val < 512 := (i 1).isLt
  have hN : cfg0.N = 200 := N_0
  have hlt : 100 * ((i 0).val / 1024) + 99 < cfg0.N := by rw [hN]; omega
  refine ⟨⟨100 * ((i 0).val / 1024) + 99, hlt⟩, (flush0_4 _).mpr (by show (100 * ((i 0).val / 1024) + 99) % 100 = 99; omega), ?_⟩
  rw [mem_blk]
  intro a
  have e := idxO ⟨100 * ((i 0).val / 1024) + 99, hlt⟩
  have e0 : win0_4.index ⟨100 * ((i 0).val / 1024) + 99, hlt⟩ 0 = (100 * ((i 0).val / 1024) + 99) / 100 := e.1
  have e1 : win0_4.index ⟨100 * ((i 0).val / 1024) + 99, hlt⟩ 1 = 0 := e.2
  match a with
  | ⟨0, _⟩ =>
    show win0_4.index ⟨100 * ((i 0).val / 1024) + 99, hlt⟩ 0 * 1024 ≤ (i 0).val ∧ (i 0).val < win0_4.index ⟨100 * ((i 0).val / 1024) + 99, hlt⟩ 0 * 1024 + 1024
    rw [e0]; omega
  | ⟨1, _⟩ =>
    show win0_4.index ⟨100 * ((i 0).val / 1024) + 99, hlt⟩ 1 * 512 ≤ (i 1).val ∧ (i 1).val < win0_4.index ⟨100 * ((i 0).val / 1024) + 99, hlt⟩ 1 * 512 + 512
    rw [e1]; omega

/-- After the region the output array is the padded logits. -/
theorem final (c : Dev nD) : (dats m 0 c).arrAt 4 cfg0.N = padded m c :=
  (dats m 0 c).arrAt_eq_of_cover 4 (padded m c) (flushed_eq m c) cover

/-- The slice after the region reads the padded logits at classes 0 … 399. -/
theorem tail_eq (c : Dev nD) :
    Pipeline.afterTail₀ cfgs (dats m) 0 (V0 m) [hostOps1] c main_v3
      = extractStridedSlice S2048x400 ![0, 0] (padded m c) slices_S2048x512_S2048x400_0_0 := by
  unfold Pipeline.afterTail₀
  show StableHlo.after hostOps1 _ (Proc.devRef .tc main_v3) = _
  after_results
  exact congrArg (fun x => extractStridedSlice S2048x400 ![0, 0] x slices_S2048x512_S2048x400_0_0)
    ((Pipeline.withArrays_arr spec0 launch0.win.arr_inj c (V0 m c) (fun w => (dats m 0 c).arrAt w (cfgs 0).N) 4).trans (final m c))

/-- The sliced padded logits are the logits of the four arguments: the region finds the queries and the support keys as
    launched, the label column is the labels, and rows 0 … 399 of the padded text table are the text table. -/
theorem result_eq (c : Dev nD) :
    extractStridedSlice S2048x400 ![0, 0] (padded m c) slices_S2048x512_S2048x400_0_0
      = logits (m ((c : Thread nD τ).loc main_arg0)) (m ((c : Thread nD τ).loc main_arg1))
          (m ((c : Thread nD τ).loc main_arg2)) (m ((c : Thread nD τ).loc main_arg3)) := by
  funext i
  obtain ⟨a, b, rfl⟩ : ∃ (a : Fin 2048) (b : Fin 400), i = ix2 a b := ⟨i 0, i 1, eq_ix2 i⟩
  have hb : b.val < 512 := by have := b.isLt; omega
  rw [extractStridedSlice_apply ![0, 0] (padded m c) slices_S2048x512_S2048x400_0_0 (ix2 a b) (ix2 a (⟨b.val, hb⟩ : Fin 512))
    (fun x => match x with
      | ⟨0, _⟩ => by show a.val = 0 + a.val; omega
      | ⟨1, _⟩ => by show b.val = 0 + b.val; omega)]
  rw [logits_apply]
  show total (V m c main_arg0) (V m c main_arg1) (labOf m c) (textRow m c ⟨b.val, hb⟩) a b.val = _
  have hl : labOf m c = fun j => m ((c : Thread nD τ).loc main_arg3) (ix1 j) := funext fun j => labelCol_apply m c j
  have ht : textRow m c ⟨b.val, hb⟩ = fun d => m ((c : Thread nD τ).loc main_arg2) (ix2 b d) := funext fun d => textPad_apply m c b d
  rw [hl, ht, V_main_arg0 m c, V_main_arg1 m c]

/-- The kernel's run, read: every weakly fair execution ends with the result at the logits of the arguments and the
    arguments unchanged. -/
theorem run : θ_run defs (onTc (τ := τ) (main (F := Ideal))) ⟨m, fun _ => 0, ρ⟩ fun r => ∀ c : Dev nD,
      r.2.mem ((c.tc : Thread nD τ).loc main_v3)
        = logits (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v3 (Pipeline.mem_restRefs_of main_v3 (by decide) (by decide))).trans ((tail_eq m c).trans (result_eq m c)),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c)⟩)
    (run_main m ρ)

end Cert.KernelIdeal.Final

end
-- ==== Proof.RefValue.lean ====
/-
  The reference computes the logits.

  Its program is a straight line: the one-hot matrix of the labels (a comparison of the label column with an iota
  along the class axis, converted unsigned), the affinities `queries · keysᵀ`, the weights
  `exp(-5.5 · (1 - affinity))`, their product with the one-hot matrix, the text logits `100 · (queries · textᵀ)`,
  and `text + 1 · cache`. Read at entry (a, b), each matrix product is a sum over its contracted index, and the
  whole is the total logit of query row a and class b.
-/
import proofs.«158673_j42107859370333_2_alg».proof.Proof.Gen.ReferenceIdeal.Read
import proofs.«158673_j42107859370333_2_alg».proof.Proof.Logits

noncomputable section

open scoped BigOperators
open Idealize.ShloMosaic Idealize.ShloMosaic.ValueIdx

namespace Cert.ReferenceIdeal.RefValue

open Cert.ReferenceIdeal Cert.ReferenceIdeal.Gen Cert.ReferenceIdeal.Read Cert.Spec

theorem result_apply (x0 : (⟨S2048x512, .f32⟩ : BufTy).Contents (Elt Ideal)) (x1 : (⟨S100000x512, .f32⟩ : BufTy).Contents (Elt Ideal))
    (x2 : (⟨S400x512, .f32⟩ : BufTy).Contents (Elt Ideal)) (x3 : (⟨S100000, .i32⟩ : BufTy).Contents (Elt Ideal)) (a : Fin 2048) (b : Fin 400) :
    val_main_v15 (F := Ideal) x0 x1 x2 x3 (ix2 a b) = logits x0 x1 x2 x3 (ix2 a b) := by
  have eTl : ∀ k : Fin 512, lidx_main_v10 (ix2 a b) k = ix2 a k := fun k => funext fun d => Fin.ext (by
    match d with | ⟨0, _⟩ => rfl | ⟨1, _⟩ => rfl)
  have eTr : ∀ k : Fin 512, idx_main_v9 (ridx_main_v10 (ix2 a b) k) = ix2 b k := fun k => funext fun d => Fin.ext (by
    match d with | ⟨0, _⟩ => rfl | ⟨1, _⟩ => rfl)
  have eWl : ∀ j : Fin 100000, lidx_main_v8 (ix2 a b) j = ix2 a j := fun j => funext fun d => Fin.ext (by
    match d with | ⟨0, _⟩ => rfl | ⟨1, _⟩ => rfl)
  have eAl : ∀ (j : Fin 100000) (k : Fin 512), lidx_main_v2 (ix2 a j) k = ix2 a k := fun j k => funext fun d => Fin.ext (by
    match d with | ⟨0, _⟩ => rfl | ⟨1, _⟩ => rfl)
  have eAr : ∀ (j : Fin 100000) (k : Fin 512), idx_main_v1 (ridx_main_v2 (ix2 a j) k) = ix2 j k := fun j k => funext fun d => Fin.ext (by
    match d with | ⟨0, _⟩ => rfl | ⟨1, _⟩ => rfl)
  have eL : ∀ j : Fin 100000, idx_main_call0_v0 (idx_main_call0_v2 (ridx_main_v8 (ix2 a b) j)) = ix1 j := fun j => funext fun d => Fin.ext (by
    match d with | ⟨0, _⟩ => rfl)
  rw [val_main_v15_apply, val_main_v12_apply, val_main_v14_apply, val_main_v11_apply, val_main_cst_1_apply,
    val_main_v13_apply, val_main_cst_2_apply, val_main_v10_apply, val_main_v8_apply]
  simp only [val_main_v9_apply, val_main_v7_apply, val_main_v6_apply, val_main_v5_apply, val_main_cst_0_apply,
    val_main_v4_apply, val_main_v3_apply, val_main_cst_apply, val_main_v2_apply, val_main_v1_apply, val_main_v0_apply,
    val_main_call0_v4_apply, val_main_call0_v2_apply, val_main_call0_v0_apply, val_main_call0_v3_apply,
    val_main_call0_v1_apply, eTl, eTr, eWl, eAl, eAr, eL]
  rfl

/-- The reference's result term is the logits of its arguments. -/
theorem result_eq (x0 : (⟨S2048x512, .f32⟩ : BufTy).Contents (Elt Ideal)) (x1 : (⟨S100000x512, .f32⟩ : BufTy).Contents (Elt Ideal))
    (x2 : (⟨S400x512, .f32⟩ : BufTy).Contents (Elt Ideal)) (x3 : (⟨S100000, .i32⟩ : BufTy).Contents (Elt Ideal)) :
    val_main_v15 (F := Ideal) x0 x1 x2 x3 = logits x0 x1 x2 x3 := by
  funext i
  obtain ⟨a, b, rfl⟩ : ∃ (a : Fin 2048) (b : Fin 400), i = ix2 a b := ⟨i 0, i 1, eq_ix2 i⟩
  exact result_apply x0 x1 x2 x3 a b

end Cert.ReferenceIdeal.RefValue

end
-- ==== Proof.lean ====
/-
  A cache-augmented classifier head, as a tiled kernel and as a plain array program, computes the same logits over
  the extended reals.

  For queries e [2048, 512], support keys k [100000, 512], a text table t [400, 512] and integer labels [100000],
  entry (i, c) of the result is
      100 · ⟨e_i, t_c⟩ + 1 · Σ_j exp(-5.5 · (1 - ⟨e_i, k_j⟩)) · [label_j = c].
  The reference forms the one-hot matrix of the labels and two whole matrix products. The kernel pads the class axis
  to 512 with zero text rows, walks a 2 × 100 grid (query tiles of 1024 rows, support blocks of 1000 rows), keeps a
  per-tile accumulator that starts at the text term and gains `1 ·` each block's weighted one-hot sum, writes the
  accumulator out after a tile's last block, and slices the classes back to 400.

  The modules: Spec (the accumulator after n blocks, the total, and the law that a sum over 100000 rows is the sum of
  its 100 blocks), Logits (the result as one function of the arguments), Dots and Payload (the body's matrix products
  and its two stored values at one entry), Pieces (what each control case leaves in scratch and in the output's
  staging buffer), Blocks (which rows each grid point reads; the padded table and the label column), Invariant (the
  accumulator point by point, by induction), Final (the output array, the slice, the kernel's run), RefValue (the
  reference's term is the logits). Nothing here needs the inputs to be finite: regrouping a sum and `1 · x = x` hold
  for all extended reals, and every other operation is applied identically on both sides.
-/
import proofs.«158673_j42107859370333_2_alg».proof.Defs
import proofs.«158673_j42107859370333_2_alg».proof.Proof.Gen.Kernel
import proofs.«158673_j42107859370333_2_alg».proof.Proof.Gen.Kernel.Skeleton
import proofs.«158673_j42107859370333_2_alg».proof.Proof.Gen.Kernel.Launch
import proofs.«158673_j42107859370333_2_alg».proof.Proof.Gen.Kernel.Points
import proofs.«158673_j42107859370333_2_alg».proof.Proof.Gen.Kernel.Frame
import proofs.«158673_j42107859370333_2_alg».proof.Proof.Gen.KernelIdeal
import proofs.«158673_j42107859370333_2_alg».proof.Proof.Gen.KernelIdeal.Skeleton
import proofs.«158673_j42107859370333_2_alg».proof.Proof.Gen.KernelIdeal.Launch
import proofs.«158673_j42107859370333_2_alg».proof.Proof.Gen.KernelIdeal.Points
import proofs.«158673_j42107859370333_2_alg».proof.Proof.Gen.KernelIdeal.Frame
import proofs.«158673_j42107859370333_2_alg».proof.Proof.Gen.ReferenceIdeal
import proofs.«158673_j42107859370333_2_alg».proof.Proof.Gen.Pre_finite_inputs
import proofs.«158673_j42107859370333_2_alg».proof.Proof.Gen.ReferenceIdeal.Run
import proofs.«158673_j42107859370333_2_alg».proof.Proof.Gen.ReferenceIdeal.Read
import proofs.«158673_j42107859370333_2_alg».proof.Proof.Final
import proofs.«158673_j42107859370333_2_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel over the extended reals rewrote no operation. -/
theorem preserves : Cert.preserves_Kernel_KernelIdeal := trivial

/-- From memories agreeing on the arguments both programs end with the logits of those arguments. -/
theorem algebraic : Cert.algebraic_KernelIdeal_ReferenceIdeal := by
  intro m ρ m' ρ' _ hagree
  refine ⟨fun c => Cert.Spec.logits
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v15_eq _ _ _ _).trans (Cert.ReferenceIdeal.RefValue.result_eq _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
